-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg8 : FVec F S16x16 .f32) (main_arg9 : FVec F S16 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x16 .f32) (main_arg7 : FVec F S16 .f32) (main_arg8 : FVec F S16x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x16 .f32) (main_arg7 : FVec F S16 .f32) (main_arg8 : FVec F S16x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S50000x16 : Shape := ⟨2, ![50000, 16]⟩

abbrev nBuf : Space → Nat
  | .hbm => 55
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .i32⟩
  | .hbm, ⟨42, _⟩ => ⟨S_, .f32⟩
  | .hbm, ⟨43, _⟩ => ⟨S128x128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128x128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S50000x128, .f32⟩
  | .hbm, ⟨54, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_call0_v0 : Ref sig .tc := ⟨.hbm, 42, rfl⟩
abbrev main_v25 : Ref sig .tc := ⟨.hbm, 43, rfl⟩
abbrev main_c_5 : Ref sig .tc := ⟨.hbm, 44, rfl⟩
abbrev main_call1_v0 : Ref sig .tc := ⟨.hbm, 45, rfl⟩
abbrev main_v26 : Ref sig .tc := ⟨.hbm, 46, rfl⟩
abbrev main_c_6 : Ref sig .tc := ⟨.hbm, 47, rfl⟩
abbrev main_call2_v0 : Ref sig .tc := ⟨.hbm, 48, rfl⟩
abbrev main_v27 : Ref sig .tc := ⟨.hbm, 49, rfl⟩
abbrev main_c_7 : Ref sig .tc := ⟨.hbm, 50, rfl⟩
abbrev main_call3_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S128x16_S128x128_000_01120 : S128x16.Pads (![0, 0] : Fin 2 → Nat) ![0, 112] ![0, 0] S128x128
  h_S_ : 0 < S_.numel
  pads_S16_S128_01120 : S16.Pads (![0] : Fin 1 → Nat) ![112] ![0] S128
  pads_S16x16_S128x128_01120_01120 : S16x16.Pads (![0, 0] : Fin 2 → Nat) ![112, 112] ![0, 0] S128x128
  shapeCasts_S128x128_S128x128 : S128x128.ShapeCasts S128x128
  shapeCasts_S128_S128 : S128.ShapeCasts S128
  slices_S50000x128_S50000x16_0_0 : S50000x128.Slices ![0, 0] S50000x16
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x16, .f32⟩
  | .hbm, ⟨61, _⟩ => ⟨S1x16, .f32⟩
  | .hbm, ⟨62, _⟩ => ⟨S50000x16, .f32⟩
  | .hbm, ⟨63, _⟩ => ⟨S50000x16, .f32⟩
  | .hbm, ⟨64, _⟩ => ⟨S_, .f32⟩
  | .hbm, ⟨65, _⟩ => ⟨S50000x16, .f32⟩
  | .hbm, ⟨66, _⟩ => ⟨S50000x16, .f32⟩
  | .hbm, ⟨67, _⟩ => ⟨S50000x16, .f32⟩
  | .hbm, ⟨68, _⟩ => ⟨S1x16, .f32⟩
  | .hbm, ⟨69, _⟩ => ⟨S50000x16, .f32⟩
  | .hbm, ⟨70, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  dot_S50000x16_S16x16_S50000x16_1_0_0_1_n_n_wf : DotDims.WF S50000x16 S16x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf

class Facts : Prop extends Facts₀ where

variable [Facts]
-- ==== Proof.Spec.lean ====
/-
  The mathematics of one graph-isomorphism layer's dense part, on the extended reals.

  A layer takes a node-feature matrix `a` and the neighbour aggregate `g` of the same shape, adds them, and sends
  every row through two affine maps with a rectifier between them:
      row r, column j  ↦  (∑ k, max ((∑ l, (a[r,l] + g[r,l]) · wa[l,k]) + ba[k]) 0 · wb[k,j]) + bb[j].
  `mlpLin` is that matrix; `mlpRelu` rectifies it once more (the first layer's output).  The aggregate `g` is left
  abstract here: both programs compute it by the same gather and scatter-add, and nothing below looks inside it.

  The last section is the one algebraic fact the comparison needs: widening the hidden and output widths with zero
  columns (and zero rows of the second weight matrix) does not change the entries that were there.  A padded hidden
  unit contributes `max (… + 0) 0 · 0`, and a product with zero is zero for every extended real, infinite or not, so
  no finiteness is needed.
-/
import Idealize.ShloMosaic.Lib.ValueIdx
import Idealize.ShloMosaic.PureOps.Ideal.Laws

noncomputable section

namespace Cert.Gin

open Idealize.ShloMosaic Idealize.ShloMosaic.ValueIdx

/-- Entry (r, j) of the two-layer perceptron applied to the rows of `a + g`. -/
def twoLayerAt {n d h o : ℕ} (a g : FVec Ideal ⟨2, ![n, d]⟩ .f32) (wa : FVec Ideal ⟨2, ![d, h]⟩ .f32)
    (ba : FVec Ideal ⟨1, ![h]⟩ .f32) (wb : FVec Ideal ⟨2, ![h, o]⟩ .f32) (bb : FVec Ideal ⟨1, ![o]⟩ .f32)
    (r : Fin n) (j : Fin o) : EReal :=
  (∑ k : Fin h, max ((∑ l : Fin d, (a (ix2 r l) + g (ix2 r l)) * wa (ix2 l k)) + ba (ix1 k)) 0 * wb (ix2 k j)) + bb (ix1 j)

/-- The perceptron's output matrix. -/
def mlpLin {n d h o : ℕ} (a g : FVec Ideal ⟨2, ![n, d]⟩ .f32) (wa : FVec Ideal ⟨2, ![d, h]⟩ .f32)
    (ba : FVec Ideal ⟨1, ![h]⟩ .f32) (wb : FVec Ideal ⟨2, ![h, o]⟩ .f32) (bb : FVec Ideal ⟨1, ![o]⟩ .f32) :
    FVec Ideal ⟨2, ![n, o]⟩ .f32 :=
  fun i => twoLayerAt a g wa ba wb bb (i 0) (i 1)

/-- The perceptron's output matrix, rectified. -/
def mlpRelu {n d h o : ℕ} (a g : FVec Ideal ⟨2, ![n, d]⟩ .f32) (wa : FVec Ideal ⟨2, ![d, h]⟩ .f32)
    (ba : FVec Ideal ⟨1, ![h]⟩ .f32) (wb : FVec Ideal ⟨2, ![h, o]⟩ .f32) (bb : FVec Ideal ⟨1, ![o]⟩ .f32) :
    FVec Ideal ⟨2, ![n, o]⟩ .f32 :=
  fun i => max (twoLayerAt a g wa ba wb bb (i 0) (i 1)) 0

theorem mlpLin_apply {n d h o : ℕ} (a g : FVec Ideal ⟨2, ![n, d]⟩ .f32) (wa : FVec Ideal ⟨2, ![d, h]⟩ .f32)
    (ba : FVec Ideal ⟨1, ![h]⟩ .f32) (wb : FVec Ideal ⟨2, ![h, o]⟩ .f32) (bb : FVec Ideal ⟨1, ![o]⟩ .f32)
    (r : Fin n) (j : Fin o) : mlpLin a g wa ba wb bb (ix2 r j) = twoLayerAt a g wa ba wb bb r j := rfl

theorem mlpRelu_apply {n d h o : ℕ} (a g : FVec Ideal ⟨2, ![n, d]⟩ .f32) (wa : FVec Ideal ⟨2, ![d, h]⟩ .f32)
    (ba : FVec Ideal ⟨1, ![h]⟩ .f32) (wb : FVec Ideal ⟨2, ![h, o]⟩ .f32) (bb : FVec Ideal ⟨1, ![o]⟩ .f32)
    (r : Fin n) (j : Fin o) : mlpRelu a g wa ba wb bb (ix2 r j) = max (twoLayerAt a g wa ba wb bb r j) 0 := rfl

end Cert.Gin

end
-- ==== Proof.RefValue.lean ====
/-
  The reference program's result, read as mathematics.

  The reference computes a two-layer graph-isomorphism network.  Each layer adds to a node-feature matrix its neighbour
  aggregate (for every edge, the source node's row is added into the destination node's row, starting from zero) and
  sends every row through two affine maps with a rectifier between them; the first layer is rectified once more.
  This module names the two index columns the aggregation reads (`srcIdx`, `dstIdx`) and the aggregation itself
  (`agg`) by the very operations the program applies, keeps `agg` closed, and proves that the program's result is
  the specification's `mlpLin` of the hidden matrix `hidden1`, itself the specification's `mlpRelu` of the input.
-/
import proofs.«159780_j70806830842516_1_alg».proof.Proof.Gen.ReferenceIdeal.Read
import proofs.«159780_j70806830842516_1_alg».proof.Proof.Spec

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx
open scoped BigOperators

/-- The gather index: the source node of every edge (row 0 of the edge list), a negative index wrapped by adding the
    number of nodes, as a column. -/
def srcIdx (e : (⟨S2x800000, .i32⟩ : BufTy).Contents (Elt Ideal)) : (⟨S800000x1, .i32⟩ : BufTy).Contents (Elt Ideal) :=
  broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))

/-- The scatter index: the destination node of every edge (row 1 of the edge list), as a column. -/
def dstIdx (e : (⟨S2x800000, .i32⟩ : BufTy).Contents (Elt Ideal)) : (⟨S800000x1, .i32⟩ : BufTy).Contents (Elt Ideal) :=
  broadcastInDim S800000x1 ![0] bcast_S800000_S800000x1_0 (shapeCast _ (extractStridedSlice S1x800000 ![1, 0] e slices_S2x800000_S1x800000_1_0) shapeCasts_S1x800000_S800000)

/-- Neighbour aggregation: gather the source nodes' rows, and add each of them into its destination node's row,
    starting from the zero matrix. -/
def agg (e : (⟨S2x800000, .i32⟩ : BufTy).Contents (Elt Ideal)) (X : FVec Ideal S50000x128 .f32) : FVec Ideal S50000x128 .f32 :=
  Host.scatterAdd scatter_S50000x128_S800000x1_S800000x128_1_0_0_1 (broadcastInDim S50000x128 ![] bcast_S_S50000x128 (constant (F := Ideal) S_ .f32 0x00000000#32)) (dstIdx e) (Host.gather gather_S50000x128_S800000x1_S800000x128_1_0_n_n_0_1_1128 X (srcIdx e))

/-! ## The program's index columns and aggregates are these -/

theorem val_main_v9_eq (e : (⟨S2x800000, .i32⟩ : BufTy).Contents (Elt Ideal)) : val_main_v9 (F := Ideal) e = srcIdx e := by
  unfold val_main_v9 val_main_v8 val_main_v7 val_main_v6 val_main_c_0 val_main_v5 val_main_v4 val_main_c val_main_v1 val_main_v0 srcIdx
  rfl

theorem val_main_v36_eq (e : (⟨S2x800000, .i32⟩ : BufTy).Contents (Elt Ideal)) : val_main_v36 (F := Ideal) e = srcIdx e := by
  unfold val_main_v36 val_main_v35 val_main_v34 val_main_v33 val_main_c_4 val_main_v32 val_main_v31 val_main_c_3 val_main_v28 val_main_v27 srcIdx
  rfl

theorem val_main_v12_eq (e : (⟨S2x800000, .i32⟩ : BufTy).Contents (Elt Ideal)) : val_main_v12 (F := Ideal) e = dstIdx e := by
  unfold val_main_v12 val_main_v3 val_main_v2 dstIdx
  rfl

theorem val_main_v39_eq (e : (⟨S2x800000, .i32⟩ : BufTy).Contents (Elt Ideal)) : val_main_v39 (F := Ideal) e = dstIdx e := by
  unfold val_main_v39 val_main_v30 val_main_v29 dstIdx
  rfl

/-- The first layer's aggregate. -/
theorem val_main_v13_eq (x0 : (⟨S50000x128, .f32⟩ : BufTy).Contents (Elt Ideal)) (e : (⟨S2x800000, .i32⟩ : BufTy).Contents (Elt Ideal)) :
    val_main_v13 (F := Ideal) x0 e = agg e x0 := by
  unfold val_main_v13 val_main_v10 val_main_v11 val_main_cst agg
  rw [val_main_v9_eq, val_main_v12_eq]

/-! ## Index bookkeeping: a contraction reads row `r` of the left factor and column `j` of the right one, and a bias is
    read at the column -/

theorem lidx15 (r : Fin 50000) (j k : Fin 128) : lidx_main_v15 (ix2 r j) k = ix2 r k :=
  funext fun a => Fin.ext (by match a with | ⟨0, _⟩ => rfl | ⟨1, _⟩ => rfl)
theorem ridx15 (r : Fin 50000) (j k : Fin 128) : ridx_main_v15 (ix2 r j) k = ix2 k j :=
  funext fun a => Fin.ext (by match a with | ⟨0, _⟩ => rfl | ⟨1, _⟩ => rfl)
theorem lidx21 (r : Fin 50000) (j k : Fin 128) : lidx_main_v21 (ix2 r j) k = ix2 r k :=
  funext fun a => Fin.ext (by match a with | ⟨0, _⟩ => rfl | ⟨1, _⟩ => rfl)
theorem ridx21 (r : Fin 50000) (j k : Fin 128) : ridx_main_v21 (ix2 r j) k = ix2 k j :=
  funext fun a => Fin.ext (by match a with | ⟨0, _⟩ => rfl | ⟨1, _⟩ => rfl)
theorem bidx17 (r : Fin 50000) (j : Fin 128) : idx_main_v16 (idx_main_v17 (ix2 r j)) = ix1 j :=
  funext fun a => Fin.ext (by match a with | ⟨0, _⟩ => rfl)
theorem bidx23 (r : Fin 50000) (j : Fin 128) : idx_main_v22 (idx_main_v23 (ix2 r j)) = ix1 j :=
  funext fun a => Fin.ext (by match a with | ⟨0, _⟩ => rfl)

/-! ## The first layer -/

/-- The first layer's output, the hidden matrix, is the rectified two-layer perceptron of the input and its
    aggregate. -/
theorem val_main_v26_eq (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v26 (F := Ideal) x0 e x2 x3 x4 x5 = Cert.Gin.mlpRelu x0 (agg e x0) x2 x3 x4 x5 := by
  funext i
  obtain ⟨r, j, rfl⟩ : ∃ (r : Fin 50000) (j : Fin 128), i = ix2 r j := ⟨i 0, i 1, eq_ix2 i⟩
  rw [Cert.Gin.mlpRelu_apply]
  unfold Cert.Gin.twoLayerAt
  rw [val_main_v26_apply, val_main_v24_apply, val_main_v21_apply, val_main_v23_apply, val_main_v22_apply, val_main_v25_apply,
    val_main_cst_2_apply, bidx23]
  simp only [val_main_v20_apply, val_main_v18_apply, val_main_v15_apply, val_main_v17_apply, val_main_v16_apply,
    val_main_v19_apply, val_main_cst_1_apply, val_main_v14_apply, val_main_v13_eq, lidx15, ridx15, lidx21, ridx21, bidx17,
    Ideal.addf_def, Ideal.maximumf_def, Ideal.ofBits_def, Ideal.ofBits_zero_f32]

/-- The second layer's aggregate is the aggregate of the hidden matrix. -/
theorem val_main_v40_eq (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v40 (F := Ideal) x0 e x2 x3 x4 x5 = agg e (val_main_v26 (F := Ideal) x0 e x2 x3 x4 x5) := by
  unfold val_main_v40 val_main_v37 val_main_v38 val_main_cst_5 agg
  rw [val_main_v36_eq, val_main_v39_eq]

/-! ## The second layer -/

theorem lidx42 (r : Fin 50000) (j : Fin 16) (k : Fin 128) : lidx_main_v42 (ix2 r j) k = ix2 r k :=
  funext fun a => Fin.ext (by match a with | ⟨0, _⟩ => rfl | ⟨1, _⟩ => rfl)
theorem ridx42 (r : Fin 50000) (j : Fin 16) (k : Fin 128) : ridx_main_v42 (ix2 r j) k = ix2 k j :=
  funext fun a => Fin.ext (by match a with | ⟨0, _⟩ => rfl | ⟨1, _⟩ => rfl)
theorem lidx48 (r : Fin 50000) (j k : Fin 16) : lidx_main_v48 (ix2 r j) k = ix2 r k :=
  funext fun a => Fin.ext (by match a with | ⟨0, _⟩ => rfl | ⟨1, _⟩ => rfl)
theorem ridx48 (r : Fin 50000) (j k : Fin 16) : ridx_main_v48 (ix2 r j) k = ix2 k j :=
  funext fun a => Fin.ext (by match a with | ⟨0, _⟩ => rfl | ⟨1, _⟩ => rfl)
theorem bidx44 (r : Fin 50000) (j : Fin 16) : idx_main_v43 (idx_main_v44 (ix2 r j)) = ix1 j :=
  funext fun a => Fin.ext (by match a with | ⟨0, _⟩ => rfl)
theorem bidx50 (r : Fin 50000) (j : Fin 16) : idx_main_v49 (idx_main_v50 (ix2 r j)) = ix1 j :=
  funext fun a => Fin.ext (by match a with | ⟨0, _⟩ => rfl)

/-- The program's last stage is the two-layer perceptron of the hidden matrix and its aggregate. -/
theorem val_main_v51_eq_mlp (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x16, .f32⟩ : BufTy).Contents (Elt Ideal)) (x7 : (⟨S16, .f32⟩ : BufTy).Contents (Elt Ideal))
    (x8 : (⟨S16x16, .f32⟩ : BufTy).Contents (Elt Ideal)) (x9 : (⟨S16, .f32⟩ : BufTy).Contents (Elt Ideal)) :
    val_main_v51 (F := Ideal) x0 e x2 x3 x4 x5 x6 x7 x8 x9 =
      Cert.Gin.mlpLin (val_main_v26 (F := Ideal) x0 e x2 x3 x4 x5) (agg e (val_main_v26 (F := Ideal) x0 e x2 x3 x4 x5)) x6 x7 x8 x9 := by
  funext i
  obtain ⟨r, j, rfl⟩ : ∃ (r : Fin 50000) (j : Fin 16), i = ix2 r j := ⟨i 0, i 1, eq_ix2 i⟩
  rw [Cert.Gin.mlpLin_apply]
  unfold Cert.Gin.twoLayerAt
  rw [val_main_v51_apply, val_main_v48_apply, val_main_v50_apply, val_main_v49_apply, bidx50]
  simp only [val_main_v47_apply, val_main_v45_apply, val_main_v42_apply, val_main_v44_apply, val_main_v43_apply,
    val_main_v46_apply, val_main_cst_6_apply, val_main_v41_apply, val_main_v40_eq, lidx42, ridx42, lidx48, ridx48, bidx44,
    Ideal.addf_def, Ideal.maximumf_def, Ideal.ofBits_def, Ideal.ofBits_zero_f32]

/-! ## The result -/

/-- The hidden matrix: the first layer's output on the program's arguments. -/
def hidden1 (m : (ℓ : Loc nD τ sig) → Buf (Elt Ideal) ℓ) (c : Dev nD) : FVec Ideal S50000x128 .f32 :=
  Cert.Gin.mlpRelu (m ((c.tc : Thread nD τ).loc main_arg0) : (⟨S50000x128, .f32⟩ : BufTy).Contents (Elt Ideal))
    (agg (m ((c.tc : Thread nD τ).loc main_arg1)) (m ((c.tc : Thread nD τ).loc main_arg0)))
    (m ((c.tc : Thread nD τ).loc main_arg2) : (⟨S128x128, .f32⟩ : BufTy).Contents (Elt Ideal))
    (m ((c.tc : Thread nD τ).loc main_arg3) : (⟨S128, .f32⟩ : BufTy).Contents (Elt Ideal))
    (m ((c.tc : Thread nD τ).loc main_arg4) : (⟨S128x128, .f32⟩ : BufTy).Contents (Elt Ideal))
    (m ((c.tc : Thread nD τ).loc main_arg5) : (⟨S128, .f32⟩ : BufTy).Contents (Elt Ideal))

/-- The reference's result is the second layer's perceptron of the hidden matrix and its aggregate. -/
theorem result_eq (m : (ℓ : Loc nD τ sig) → Buf (Elt Ideal) ℓ) (c : Dev nD) :
    res_out0 (F := Ideal) m c =
      Cert.Gin.mlpLin (hidden1 m c) (agg (m ((c.tc : Thread nD τ).loc main_arg1)) (hidden1 m c))
        (m ((c.tc : Thread nD τ).loc main_arg6) : (⟨S128x16, .f32⟩ : BufTy).Contents (Elt Ideal))
        (m ((c.tc : Thread nD τ).loc main_arg7) : (⟨S16, .f32⟩ : BufTy).Contents (Elt Ideal))
        (m ((c.tc : Thread nD τ).loc main_arg8) : (⟨S16x16, .f32⟩ : BufTy).Contents (Elt Ideal))
        (m ((c.tc : Thread nD τ).loc main_arg9) : (⟨S16, .f32⟩ : BufTy).Contents (Elt Ideal)) := by
  refine (val_main_v51_eq (F := Ideal) m c).trans ?_
  rw [val_main_v51_eq_mlp, val_main_v26_eq]
  rfl

end Cert.ReferenceIdeal.RefValue

end
-- ==== Proof.HostGlue.lean ====
/-
  What the host lines of the idealized kernel's program compute, boundary by boundary.

  The program's host lines do three things.  Before the first launch they cut the edge list into its row of sources
  and its row of destinations and form the neighbour aggregate of the input features: gather the source rows (a
  negative index wrapped by the number of nodes), scatter-add them at the destination rows, starting from zero.
  Between the launches they form the same aggregate of the first launch's output and widen the second layer's weights
  and biases with zeros to 128 columns.  After the second launch they keep the first 16 columns.

  Here each buffer a launch reads is computed, as a term of the launch memory, at the boundary where the launch finds
  it; the aggregate is kept as ONE function `agg` of the edge list and a feature matrix and is never opened.
-/
import proofs.«159780_j70806830842516_1_alg».proof.Proof.Gen.KernelIdeal.Frame
import Idealize.ShloMosaic.Lib.StableHlo.Run
import Idealize.ShloMosaic.PureOps.Ideal.Laws

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.StableHlo

/-- The source node of every edge: row 0 of the edge list. -/
def srcRow (e : IVec S2x800000 32) : IVec S800000 32 :=
  shapeCast S800000 (extractStridedSlice S1x800000 ![0, 0] e slices_S2x800000_S1x800000_0_0) shapeCasts_S1x800000_S800000

/-- The destination node of every edge: row 1 of the edge list. -/
def dstRow (e : IVec S2x800000 32) : IVec S800000 32 :=
  shapeCast S800000 (extractStridedSlice S1x800000 ![1, 0] e slices_S2x800000_S1x800000_1_0) shapeCasts_S1x800000_S800000

/-- The neighbour aggregate of a feature matrix from a row of sources and a row of destinations: the source rows
    gathered (a negative source index wrapped by 50000), scatter-added at the destination rows into the zero matrix. -/
def aggWith (s t : IVec S800000 32) (X : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 t)
    (Host.gather gather_S50000x128_S800000x1_S800000x128_1_0_n_n_0_1_1128 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The neighbour aggregate of a feature matrix along an edge list. -/
def agg (e : IVec S2x800000 32) (X : FVec Ideal S50000x128 .f32) : FVec Ideal S50000x128 .f32 :=
  aggWith (srcRow e) (dstRow e) X

/-- The value the widening pads with: the integer zero as a float. -/
def padZero : FVec Ideal S_ .f32 := sitofp .f32 (constantI S_ 32 0#32)

variable (m : (ℓ : Loc nD τ sig) → Buf (Elt Ideal) ℓ) (ρ : Dev nD → PrngReg) (c : Dev nD)

/-! ## At the first launch's entry -/

theorem entry0_arg0 : W1 m ρ c (Proc.devRef .tc main_arg0) = m ((c : Thread nD τ).loc main_arg0) := by
  dsimp only [W1]; after_results
theorem entry0_arg2 : W1 m ρ c (Proc.devRef .tc main_arg2) = m ((c : Thread nD τ).loc main_arg2) := by
  dsimp only [W1]; after_results
theorem entry0_arg3 : W1 m ρ c (Proc.devRef .tc main_arg3) = m ((c : Thread nD τ).loc main_arg3) := by
  dsimp only [W1]; after_results
theorem entry0_arg4 : W1 m ρ c (Proc.devRef .tc main_arg4) = m ((c : Thread nD τ).loc main_arg4) := by
  dsimp only [W1]; after_results
theorem entry0_arg5 : W1 m ρ c (Proc.devRef .tc main_arg5) = m ((c : Thread nD τ).loc main_arg5) := by
  dsimp only [W1]; after_results
theorem entry0_arg6 : W1 m ρ c (Proc.devRef .tc main_arg6) = m ((c : Thread nD τ).loc main_arg6) := by
  dsimp only [W1]; after_results
theorem entry0_arg7 : W1 m ρ c (Proc.devRef .tc main_arg7) = m ((c : Thread nD τ).loc main_arg7) := by
  dsimp only [W1]; after_results
theorem entry0_arg8 : W1 m ρ c (Proc.devRef .tc main_arg8) = m ((c : Thread nD τ).loc main_arg8) := by
  dsimp only [W1]; after_results
theorem entry0_arg9 : W1 m ρ c (Proc.devRef .tc main_arg9) = m ((c : Thread nD τ).loc main_arg9) := by
  dsimp only [W1]; after_results

/-- The row of sources, as the first launch finds it. -/
theorem entry0_src : W1 m ρ c (Proc.devRef .tc main_v1) = srcRow (m ((c : Thread nD τ).loc main_arg1)) := by
  dsimp only [W1]; after_results; rfl
/-- The row of destinations, as the first launch finds it. -/
theorem entry0_dst : W1 m ρ c (Proc.devRef .tc main_v3) = dstRow (m ((c : Thread nD τ).loc main_arg1)) := by
  dsimp only [W1]; after_results; rfl
/-- The first launch's second operand is the neighbour aggregate of the input features. -/
theorem entry0_agg : W1 m ρ c (Proc.devRef .tc main_v13)
    = agg (m ((c : Thread nD τ).loc main_arg1)) (m ((c : Thread nD τ).loc main_arg0)) := by
  dsimp only [W1]; after_results; rfl

/-! ## At the first launch's exit: its output array is what its write-backs leave, everything else as entered -/

theorem exit0_out : W2 m ρ c (Proc.devRef .tc main_v14) = (dat0 (V1 m ρ) c).arrAt 6 cfg0.N := W2_arr m ρ c 6
theorem exit0_src : W2 m ρ c (Proc.devRef .tc main_v1) = srcRow (m ((c : Thread nD τ).loc main_arg1)) :=
  (W2_of_ne m ρ c main_v1 (by decide)).trans (entry0_src m ρ c)
theorem exit0_dst : W2 m ρ c (Proc.devRef .tc main_v3) = dstRow (m ((c : Thread nD τ).loc main_arg1)) :=
  (W2_of_ne m ρ c main_v3 (by decide)).trans (entry0_dst m ρ c)
theorem exit0_arg6 : W2 m ρ c (Proc.devRef .tc main_arg6) = m ((c : Thread nD τ).loc main_arg6) :=
  (W2_of_ne m ρ c main_arg6 (by decide)).trans (entry0_arg6 m ρ c)
theorem exit0_arg7 : W2 m ρ c (Proc.devRef .tc main_arg7) = m ((c : Thread nD τ).loc main_arg7) :=
  (W2_of_ne m ρ c main_arg7 (by decide)).trans (entry0_arg7 m ρ c)
theorem exit0_arg8 : W2 m ρ c (Proc.devRef .tc main_arg8) = m ((c : Thread nD τ).loc main_arg8) :=
  (W2_of_ne m ρ c main_arg8 (by decide)).trans (entry0_arg8 m ρ c)
theorem exit0_arg9 : W2 m ρ c (Proc.devRef .tc main_arg9) = m ((c : Thread nD τ).loc main_arg9) :=
  (W2_of_ne m ρ c main_arg9 (by decide)).trans (entry0_arg9 m ρ c)

/-! ## At the second launch's entry -/

/-- Its first operand is the first launch's output. -/
theorem entry1_feat : W10 m ρ c (Proc.devRef .tc main_v14) = W2 m ρ c (Proc.devRef .tc main_v14) := by
  dsimp only [W10, W9, W8, W7, W6, W5, W4, W3]; after_results
/-- Its second operand is the neighbour aggregate of the first launch's output. -/
theorem entry1_agg : W10 m ρ c (Proc.devRef .tc main_v24)
    = agg (m ((c : Thread nD τ).loc main_arg1)) (W2 m ρ c (Proc.devRef .tc main_v14)) := by
  have h : W10 m ρ c (Proc.devRef .tc main_v24)
      = aggWith (W2 m ρ c (Proc.devRef .tc main_v1)) (W2 m ρ c (Proc.devRef .tc main_v3)) (W2 m ρ c (Proc.devRef .tc main_v14)) := by
    dsimp only [W10, W9, W8, W7, W6, W5, W4, W3]; after_results; rfl
  rw [h, exit0_src, exit0_dst]; rfl
/-- The widened first weight matrix of the second layer. -/
theorem entry1_wa : W10 m ρ c (Proc.devRef .tc main_v25)
    = pad S128x128 ![0, 0] ![0, 112] ![0, 0] (m ((c : Thread nD τ).loc main_arg6) : FVec Ideal S128x16 .f32) padZero
        pads_S128x16_S128x128_000_01120 h_S_ := by
  have h : W10 m ρ c (Proc.devRef .tc main_v25)
      = pad S128x128 ![0, 0] ![0, 112] ![0, 0] (W2 m ρ c (Proc.devRef .tc main_arg6) : FVec Ideal S128x16 .f32) padZero
          pads_S128x16_S128x128_000_01120 h_S_ := by
    dsimp only [W10, W9, W8, W7, W6, W5, W4, W3]; after_results; rfl
  rw [h, exit0_arg6]
/-- The widened first bias row of the second layer. -/
theorem entry1_ba : W10 m ρ c (Proc.devRef .tc main_v26)
    = pad S128 ![0] ![112] ![0] (m ((c : Thread nD τ).loc main_arg7) : FVec Ideal S16 .f32) padZero pads_S16_S128_01120 h_S_ := by
  have h : W10 m ρ c (Proc.devRef .tc main_v26)
      = pad S128 ![0] ![112] ![0] (W2 m ρ c (Proc.devRef .tc main_arg7) : FVec Ideal S16 .f32) padZero pads_S16_S128_01120 h_S_ := by
    dsimp only [W10, W9, W8, W7, W6, W5, W4, W3]; after_results; rfl
  rw [h, exit0_arg7]
/-- The widened second weight matrix of the second layer. -/
theorem entry1_wb : W10 m ρ c (Proc.devRef .tc main_v27)
    = pad S128x128 ![0, 0] ![112, 112] ![0, 0] (m ((c : Thread nD τ).loc main_arg8) : FVec Ideal S16x16 .f32) padZero
        pads_S16x16_S128x128_01120_01120 h_S_ := by
  have h : W10 m ρ c (Proc.devRef .tc main_v27)
      = pad S128x128 ![0, 0] ![112, 112] ![0, 0] (W2 m ρ c (Proc.devRef .tc main_arg8) : FVec Ideal S16x16 .f32) padZero
          pads_S16x16_S128x128_01120_01120 h_S_ := by
    dsimp only [W10, W9, W8, W7, W6, W5, W4, W3]; after_results; rfl
  rw [h, exit0_arg8]
/-- The widened second bias row of the second layer. -/
theorem entry1_bb : W10 m ρ c (Proc.devRef .tc main_v28)
    = pad S128 ![0] ![112] ![0] (m ((c : Thread nD τ).loc main_arg9) : FVec Ideal S16 .f32) padZero pads_S16_S128_01120 h_S_ := by
  have h : W10 m ρ c (Proc.devRef .tc main_v28)
      = pad S128 ![0] ![112] ![0] (W2 m ρ c (Proc.devRef .tc main_arg9) : FVec Ideal S16 .f32) padZero pads_S16_S128_01120 h_S_ := by
    dsimp only [W10, W9, W8, W7, W6, W5, W4, W3]; after_results; rfl
  rw [h, exit0_arg9]

/-! ## At the second launch's exit, and at the return -/

theorem exit1_out : W11 m ρ c (Proc.devRef .tc main_v29) = (dat1 (V10 m ρ) c).arrAt 6 cfg1.N := W11_arr m ρ c 6

/-- The program's result: the first 16 columns of the second launch's output. -/
theorem result_slice : W12 m ρ c (Proc.devRef .tc main_v30)
    = extractStridedSlice S50000x16 ![0, 0] (W11 m ρ c (Proc.devRef .tc main_v29)) slices_S50000x128_S50000x16_0_0 := by
  dsimp only [W12]; after_results

end Cert.KernelIdeal.KerValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Body.lean ====
/-
  The two bodies of the graph network's dense kernels, read at one entry.

  Each body receives a block of 5000 rows of the node features and of the neighbour aggregate, two 128 x 128 weight
  matrices and two bias rows.  It adds the two blocks, multiplies by the first weight matrix, adds the first bias
  row to every row, rectifies, multiplies by the second weight matrix and adds the second bias row; the first
  kernel rectifies once more.  On the extended reals a change of float format is the identity and a product into
  the zero accumulator is the plain sum over the contracted index, so entry (r, j) of either result is the
  two-layer perceptron of the specification at (r, j), rectified for the first kernel.

  The work is one lemma, `affine_apply`: a product into the zero accumulator plus a bias row broadcast over the
  rows, read at (r, k), is  (∑ l, X[r, l] · W[l, k]) + b[k].  Both layers of both bodies are instances of it.
-/
import proofs.«159780_j70806830842516_1_alg».proof.Proof.Gen.KernelIdeal.Skeleton
import proofs.«159780_j70806830842516_1_alg».proof.Proof.Spec
import proofs.«159780_j70806830842516_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Idealize.ShloMosaic Idealize.ShloMosaic.ValueIdx

/-- The printed contraction record is the plain row-by-column one. -/
theorem dot_eq_plain : dot_S5000x128_S128x128_S5000x128_1_0_0_1_n_n = DotDims.plain 5000 128 128 := rfl

/-- One affine layer at an entry: a [5000, 128] × [128, 128] product into the zero accumulator, plus a bias row
    broadcast over the rows, is at (r, k) the sum ∑ l, X[r, l] · W[l, k] plus b[k]. -/
theorem affine_apply {φ₁ φ₂ : FTy} (X : FVec Ideal S5000x128 φ₁) (W : FVec Ideal S128x128 φ₂) (b : FVec Ideal S128 .f32)
    (r : Fin 5000) (k : Fin 128) :
    addf (matmul dot_S5000x128_S128x128_S5000x128_1_0_0_1_n_n none X W (constant (F := Ideal) S5000x128 .f32 0x00000000#32))
        (broadcastTo S5000x128 (shapeCast S1x128 b Gen.shapeCasts_S128_S1x128) Gen.broadcasts_S1x128_S5000x128) (ix2 r k)
      = (∑ l : Fin 128, X (ix2 r l) * W (ix2 l k)) + b (ix1 k) := by
  refine (addf_apply _ _ _).trans ?_
  refine congrArg₂ (· + ·) ?_ ?_
  · exact matmul_plain_zero_apply _ dot_eq_plain none X W r k
  · refine (broadcastTo_1b_ab_apply _ _ r k).trans ?_
    exact shapeCast_a_1a_apply b _ 0 k

/-- The zero word broadcast over a block reads 0 everywhere. -/
theorem zero_block_apply (i : S5000x128.Idx) :
    broadcast S5000x128 (Scalar.ofBits (F := Ideal) .f32 0x00000000#32) i = (0 : EReal) :=
  Ideal.ofBits_zero_f32

/-- Entry (r, j) of the first kernel's stored block: the perceptron of the block's rows, rectified. -/
theorem k0_pay1_apply (x0 x1 : Vec Ideal S5000x128 .f32) (wa : Vec Ideal S128x128 .f32) (ba : Vec Ideal S128 .f32)
    (wb : Vec Ideal S128x128 .f32) (bb : Vec Ideal S128 .f32) (r : Fin 5000) (j : Fin 128) :
    Gen.k0_pay1 (F := Ideal) x0 x1 wa ba wb bb (ix2 r j) = max (Cert.Gin.twoLayerAt x0 x1 wa ba wb bb r j) 0 := by
  unfold Gen.k0_pay1
  refine (maximumf_apply _ _ _).trans ?_
  refine congrArg₂ max ?_ (zero_block_apply _)
  refine (affine_apply _ _ bb r j).trans ?_
  unfold Cert.Gin.twoLayerAt
  refine congrArg (· + bb (ix1 j)) (Finset.sum_congr rfl fun k _ => ?_)
  refine congrArg₂ (· * ·) ?_ (truncf_apply (φ := .f32) (ψ := .bf16) _ _ _)
  refine (truncf_apply (φ := .f32) (ψ := .bf16) _ _ _).trans ?_
  refine (maximumf_apply _ _ _).trans ?_
  refine congrArg₂ max ?_ (zero_block_apply _)
  refine (affine_apply _ _ ba r k).trans ?_
  refine congrArg (· + ba (ix1 k)) (Finset.sum_congr rfl fun l _ => ?_)
  refine congrArg₂ (· * ·) ?_ (truncf_apply (φ := .f32) (ψ := .bf16) _ _ _)
  refine (truncf_apply (φ := .f32) (ψ := .bf16) _ _ _).trans ?_
  refine (addf_apply _ _ _).trans ?_
  rw [shapeCast_self]

/-- Entry (r, j) of the second kernel's stored block: the perceptron of the block's rows. -/
theorem k1_pay1_apply (x0 x1 : Vec Ideal S5000x128 .f32) (wa : Vec Ideal S128x128 .f32) (ba : Vec Ideal S128 .f32)
    (wb : Vec Ideal S128x128 .f32) (bb : Vec Ideal S128 .f32) (r : Fin 5000) (j : Fin 128) :
    Gen.k1_pay1 (F := Ideal) x0 x1 wa ba wb bb (ix2 r j) = Cert.Gin.twoLayerAt x0 x1 wa ba wb bb r j := by
  unfold Gen.k1_pay1
  rw [shapeCast_self x0, shapeCast_self x1, shapeCast_self wa, shapeCast_self wb, shapeCast_self ba, shapeCast_self bb]
  refine (affine_apply _ _ bb r j).trans ?_
  unfold Cert.Gin.twoLayerAt
  refine congrArg (· + bb (ix1 j)) (Finset.sum_congr rfl fun k _ => ?_)
  refine congrArg₂ (· * ·) ?_ (truncf_apply (φ := .f32) (ψ := .bf16) _ _ _)
  refine (truncf_apply (φ := .f32) (ψ := .bf16) _ _ _).trans ?_
  refine (maximumf_apply _ _ _).trans ?_
  refine congrArg₂ max ?_ (zero_block_apply _)
  refine (affine_apply _ _ ba r k).trans ?_
  refine congrArg (· + ba (ix1 k)) (Finset.sum_congr rfl fun l _ => ?_)
  refine congrArg₂ (· * ·) ?_ (truncf_apply (φ := .f32) (ψ := .bf16) _ _ _)
  refine (truncf_apply (φ := .f32) (ψ := .bf16) _ _ _).trans ?_
  exact addf_apply _ _ _

end Cert.KernelIdeal.KerValue

end
-- ==== Proof.Blocks0.lean ====
/-
  The first dense kernel's output array after its run, as one function of the arrays the region finds.

  The grid has ten points.  Point t receives rows 5000 t … 5000 t + 4999 of the node features and of the neighbour
  aggregate, and the two weight matrices and the two bias rows whole; it writes the rectified two-layer perceptron
  of its rows to the same rows of the output.  An entry of the perceptron depends on one row of the two row-block
  inputs only, so what point t writes is block t of the rectified perceptron of the whole arrays.  Row r of the
  output lies in block r / 5000, so the ten blocks cover the output, and the array ends holding that function.
-/
import proofs.«159780_j70806830842516_1_alg».proof.Proof.Gen.KernelIdeal.Frame
import proofs.«159780_j70806830842516_1_alg».proof.Proof.Body
import proofs.«159780_j70806830842516_1_alg».proof.Proof.Spec
import Idealize.ShloMosaic.Lib.Pipeline.Value

noncomputable section

namespace Cert.KernelIdeal.KerValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_r0 : (![0, 0] : Fin 2 → Nat) = fun _ => 0 := funext fun a => by fin_cases a <;> rfl
theorem zeros1_r0 : (![0] : Fin 1 → Nat) = fun _ => 0 := funext fun a => by fin_cases a; rfl

/-- The printed index maps over the ten grid points: the two row-block inputs and the output sit at row block t,
    column block 0; the weights and biases are always at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ t.val < 10 :=
  (by decide +kernel : ∀ t : Fin grid0.N, _)

/-- Input block 0 at point t: rows 5000 t … 5000 t + 4999 of the node features. -/
theorem iblk0_0_apply (c : Dev nD) (t : Fin cfg0.N) (r : Fin 5000) (p : Fin 50000) (hp : p.val = t.val * 5000 + r.val) (l : Fin 128) :
    (Gen.iblk0 V c 0 t : Vec Ideal S5000x128 .f32) (ix2 r l) = (V c main_arg0 : FVec Ideal S50000x128 .f32) (ix2 p l) := by
  obtain ⟨e0, e1, -⟩ := idx_facts0 t
  unfold Gen.iblk0
  rw [View.read_apply]
  show V c main_arg0 _ = V c main_arg0 _
  congr 1
  funext a
  apply Fin.ext
  match a with
  | ⟨0, _⟩ => show win0_0.index t 0 * 5000 + 1 * r.val = p.val; rw [e0, hp]; omega
  | ⟨1, _⟩ => show win0_0.index t 1 * 128 + 1 * l.val = l.val; rw [e1]; omega

/-- Input block 1 at point t: the same rows of the neighbour aggregate. -/
theorem iblk0_1_apply (c : Dev nD) (t : Fin cfg0.N) (r : Fin 5000) (p : Fin 50000) (hp : p.val = t.val * 5000 + r.val) (l : Fin 128) :
    (Gen.iblk0 V c 1 t : Vec Ideal S5000x128 .f32) (ix2 r l) = (V c main_v13 : FVec Ideal S50000x128 .f32) (ix2 p l) := by
  obtain ⟨-, -, e0, e1, -⟩ := idx_facts0 t
  unfold Gen.iblk0
  rw [View.read_apply]
  show V c main_v13 _ = V c main_v13 _
  congr 1
  funext a
  apply Fin.ext
  match a with
  | ⟨0, _⟩ => show win0_1.index t 0 * 5000 + 1 * r.val = p.val; rw [e0, hp]; omega
  | ⟨1, _⟩ => show win0_1.index t 1 * 128 + 1 * l.val = l.val; rw [e1]; omega

/-- The weight and bias windows hold their whole arrays at every point. -/
theorem iblk0_2_eq (c : Dev nD) (t : Fin cfg0.N) :
    (Gen.iblk0 V c 2 t : Vec Ideal S128x128 .f32) = (V c main_arg2 : FVec Ideal S128x128 .f32) := by
  obtain ⟨-, -, -, -, e0, e1, -⟩ := idx_facts0 t
  funext y
  unfold Gen.iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem iblk0_3_eq (c : Dev nD) (t : Fin cfg0.N) :
    (Gen.iblk0 V c 3 t : Vec Ideal S128 .f32) = (V c main_arg3 : FVec Ideal S128 .f32) := by
  obtain ⟨-, -, -, -, -, -, e0, -⟩ := idx_facts0 t
  funext y
  unfold Gen.iblk0
  rw [View.read_apply]
  show V c main_arg3 _ = V c main_arg3 _
  congr 1
  funext a
  apply Fin.ext
  match a with
  | ⟨0, _⟩ => show win0_3.index t 0 * 128 + 1 * (y 0).val = (y 0).val; rw [e0]; omega

theorem iblk0_4_eq (c : Dev nD) (t : Fin cfg0.N) :
    (Gen.iblk0 V c 4 t : Vec Ideal S128x128 .f32) = (V c main_arg4 : FVec Ideal S128x128 .f32) := by
  obtain ⟨-, -, -, -, -, -, -, e0, e1, -⟩ := idx_facts0 t
  funext y
  unfold Gen.iblk0
  rw [View.read_apply]
  show V c main_arg4 _ = V c main_arg4 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem iblk0_5_eq (c : Dev nD) (t : Fin cfg0.N) :
    (Gen.iblk0 V c 5 t : Vec Ideal S128 .f32) = (V c main_arg5 : FVec Ideal S128 .f32) := by
  obtain ⟨-, -, -, -, -, -, -, -, -, e0, -⟩ := idx_facts0 t
  funext y
  unfold Gen.iblk0
  rw [View.read_apply]
  show V c main_arg5 _ = V c main_arg5 _
  congr 1
  funext a
  apply Fin.ext
  match a with
  | ⟨0, _⟩ => show win0_5.index t 0 * 128 + 1 * (y 0).val = (y 0).val; rw [e0]; omega

/-- One point's stored block against the whole-array perceptron: if the two row-block inputs are rows
    5000 T … of the arrays A and G, entry y of the stored block is entry (5000 T + y₀, y₁) of the rectified
    perceptron of A and G. -/
theorem point0_value (A G : FVec Ideal S50000x128 .f32) (wa wb : FVec Ideal S128x128 .f32) (ba bb : FVec Ideal S128 .f32)
    (x0 x1 : Vec Ideal S5000x128 .f32) (T : ℕ)
    (h0 : ∀ (r : Fin 5000) (p : Fin 50000), p.val = T * 5000 + r.val → ∀ l : Fin 128, x0 (ix2 r l) = A (ix2 p l))
    (h1 : ∀ (r : Fin 5000) (p : Fin 50000), p.val = T * 5000 + r.val → ∀ l : Fin 128, x1 (ix2 r l) = G (ix2 p l))
    (y : S5000x128.Idx) (i : S50000x128.Idx) (hi0 : (i 0).val = T * 5000 + (y 0).val) (hi1 : (i 1).val = (y 1).val) :
    Gen.k0_pay1 (F := Ideal) x0 x1 wa ba wb bb y = Cert.Gin.mlpRelu A G wa ba wb bb i := by
  obtain ⟨r, j, rfl⟩ : ∃ (r : Fin 5000) (j : Fin 128), y = ix2 r j := ⟨y 0, y 1, eq_ix2 y⟩
  obtain ⟨p, q, rfl⟩ : ∃ (p : Fin 50000) (q : Fin 128), i = ix2 p q := ⟨i 0, i 1, eq_ix2 i⟩
  have hp : p.val = T * 5000 + r.val := hi0
  obtain rfl : q = j := Fin.ext hi1
  rw [k0_pay1_apply, Cert.Gin.mlpRelu_apply]
  unfold Cert.Gin.twoLayerAt
  simp only [h0 r p hp, h1 r p hp]

/-- What point t writes back is block t of the rectified perceptron of the arrays as the region finds them. -/
theorem flushed0_eq (c : Dev nD) (t : Fin cfg0.N) :
    (Gen.dat0 (F := Ideal) V c).flushed 6 t = ((cfg0.win 6).blk t).view.read (Elt Ideal)
      (Cert.Gin.mlpRelu (V c main_arg0 : FVec Ideal S50000x128 .f32) (V c main_v13 : FVec Ideal S50000x128 .f32)
        (V c main_arg2 : FVec Ideal S128x128 .f32) (V c main_arg3 : FVec Ideal S128 .f32)
        (V c main_arg4 : FVec Ideal S128x128 .f32) (V c main_arg5 : FVec Ideal S128 .f32)) := by
  show (cfg0.win 6).cut (grid0.coords t) ((Gen.dat0 V c).after 6 t) = _
  rw [Gen.after0_6]
  unfold Gen.out0_6
  rw [View.canon_unit_zero zeros2_r0]
  simp only [View.ld_unit_zero (S := S5000x128) zeros2_r0, View.ld_unit_zero (S := S128x128) zeros2_r0, View.ld_unit_zero (S := S128) zeros1_r0]
  rw [iblk0_2_eq, iblk0_3_eq, iblk0_4_eq, iblk0_5_eq]
  obtain ⟨-, -, -, -, -, -, -, -, -, -, e0, e1, -⟩ := idx_facts0 t
  funext y
  rw [View.read_apply]
  refine point0_value _ _ _ _ _ _ _ _ t.val (iblk0_0_apply V c t) (iblk0_1_apply V c t) _ _ ?_ ?_
  · show win0_6.index t 0 * 5000 + 1 * (y 0).val = t.val * 5000 + (y 0).val
    rw [e0]; omega
  · show win0_6.index t 1 * 128 + 1 * (y 1).val = (y 1).val
    rw [e1]; omega

/-- An index of the output array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Every row of the output array is in some point's block: row r is in block r / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := Gen.N_0
  let t : Fin cfg0.N := ⟨(i 0).val / 5000, by rw [hN]; omega⟩
  obtain ⟨-, -, -, -, -, -, -, -, -, -, e0, e1, -⟩ := idx_facts0 t
  have ht : t.val = (i 0).val / 5000 := rfl
  refine ⟨t, Gen.flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The first region's output array after its run: the rectified perceptron of the arrays the region finds. -/
theorem region0_value (c : Dev nD) :
    (Gen.dat0 (F := Ideal) V c).arrAt 6 cfg0.N =
      Cert.Gin.mlpRelu (V c main_arg0 : FVec Ideal S50000x128 .f32) (V c main_v13 : FVec Ideal S50000x128 .f32)
        (V c main_arg2 : FVec Ideal S128x128 .f32) (V c main_arg3 : FVec Ideal S128 .f32)
        (V c main_arg4 : FVec Ideal S128x128 .f32) (V c main_arg5 : FVec Ideal S128 .f32) :=
  (Gen.dat0 (F := Ideal) V c).arrAt_eq_of_cover 6 _ (fun t _ => flushed0_eq V c t) cover0

end Cert.KernelIdeal.KerValue

end
-- ==== Proof.Blocks1.lean ====
/-
  The second dense kernel's output array after its run, as one function of the arrays the region finds.

  The grid has ten points.  Point t receives rows 5000 t … 5000 t + 4999 of the first layer's output and of its
  neighbour aggregate, and the two weight matrices and the two bias rows whole; it writes the two-layer perceptron
  of its rows to the same rows of the output.  An entry of the perceptron depends on one row of the two row-block
  inputs only, so what point t writes is block t of the perceptron of the whole arrays.  Row r of the
  output lies in block r / 5000, so the ten blocks cover the output, and the array ends holding that function.
-/
import proofs.«159780_j70806830842516_1_alg».proof.Proof.Gen.KernelIdeal.Frame
import proofs.«159780_j70806830842516_1_alg».proof.Proof.Body
import proofs.«159780_j70806830842516_1_alg».proof.Proof.Spec
import Idealize.ShloMosaic.Lib.Pipeline.Value

noncomputable section

namespace Cert.KernelIdeal.KerValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_r1 : (![0, 0] : Fin 2 → Nat) = fun _ => 0 := funext fun a => by fin_cases a <;> rfl
theorem zeros1_r1 : (![0] : Fin 1 → Nat) = fun _ => 0 := funext fun a => by fin_cases a; rfl

/-- The printed index maps over the ten grid points: the two row-block inputs and the output sit at row block t,
    column block 0; the weights and biases are always at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ t.val < 10 :=
  (by decide +kernel : ∀ t : Fin grid1.N, _)

/-- Input block 0 at point t: rows 5000 t … 5000 t + 4999 of the first layer's output. -/
theorem iblk1_0_apply (c : Dev nD) (t : Fin cfg1.N) (r : Fin 5000) (p : Fin 50000) (hp : p.val = t.val * 5000 + r.val) (l : Fin 128) :
    (Gen.iblk1 V c 0 t : Vec Ideal S5000x128 .f32) (ix2 r l) = (V c main_v14 : FVec Ideal S50000x128 .f32) (ix2 p l) := by
  obtain ⟨e0, e1, -⟩ := idx_facts1 t
  unfold Gen.iblk1
  rw [View.read_apply]
  show V c main_v14 _ = V c main_v14 _
  congr 1
  funext a
  apply Fin.ext
  match a with
  | ⟨0, _⟩ => show win1_0.index t 0 * 5000 + 1 * r.val = p.val; rw [e0, hp]; omega
  | ⟨1, _⟩ => show win1_0.index t 1 * 128 + 1 * l.val = l.val; rw [e1]; omega

/-- Input block 1 at point t: the same rows of the neighbour aggregate. -/
theorem iblk1_1_apply (c : Dev nD) (t : Fin cfg1.N) (r : Fin 5000) (p : Fin 50000) (hp : p.val = t.val * 5000 + r.val) (l : Fin 128) :
    (Gen.iblk1 V c 1 t : Vec Ideal S5000x128 .f32) (ix2 r l) = (V c main_v24 : FVec Ideal S50000x128 .f32) (ix2 p l) := by
  obtain ⟨-, -, e0, e1, -⟩ := idx_facts1 t
  unfold Gen.iblk1
  rw [View.read_apply]
  show V c main_v24 _ = V c main_v24 _
  congr 1
  funext a
  apply Fin.ext
  match a with
  | ⟨0, _⟩ => show win1_1.index t 0 * 5000 + 1 * r.val = p.val; rw [e0, hp]; omega
  | ⟨1, _⟩ => show win1_1.index t 1 * 128 + 1 * l.val = l.val; rw [e1]; omega

/-- The weight and bias windows hold their whole arrays at every point. -/
theorem iblk1_2_eq (c : Dev nD) (t : Fin cfg1.N) :
    (Gen.iblk1 V c 2 t : Vec Ideal S128x128 .f32) = (V c main_v25 : FVec Ideal S128x128 .f32) := by
  obtain ⟨-, -, -, -, e0, e1, -⟩ := idx_facts1 t
  funext y
  unfold Gen.iblk1
  rw [View.read_apply]
  show V c main_v25 _ = V c main_v25 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem iblk1_3_eq (c : Dev nD) (t : Fin cfg1.N) :
    (Gen.iblk1 V c 3 t : Vec Ideal S128 .f32) = (V c main_v26 : FVec Ideal S128 .f32) := by
  obtain ⟨-, -, -, -, -, -, e0, -⟩ := idx_facts1 t
  funext y
  unfold Gen.iblk1
  rw [View.read_apply]
  show V c main_v26 _ = V c main_v26 _
  congr 1
  funext a
  apply Fin.ext
  match a with
  | ⟨0, _⟩ => show win1_3.index t 0 * 128 + 1 * (y 0).val = (y 0).val; rw [e0]; omega

theorem iblk1_4_eq (c : Dev nD) (t : Fin cfg1.N) :
    (Gen.iblk1 V c 4 t : Vec Ideal S128x128 .f32) = (V c main_v27 : FVec Ideal S128x128 .f32) := by
  obtain ⟨-, -, -, -, -, -, -, e0, e1, -⟩ := idx_facts1 t
  funext y
  unfold Gen.iblk1
  rw [View.read_apply]
  show V c main_v27 _ = V c main_v27 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

theorem iblk1_5_eq (c : Dev nD) (t : Fin cfg1.N) :
    (Gen.iblk1 V c 5 t : Vec Ideal S128 .f32) = (V c main_v28 : FVec Ideal S128 .f32) := by
  obtain ⟨-, -, -, -, -, -, -, -, -, e0, -⟩ := idx_facts1 t
  funext y
  unfold Gen.iblk1
  rw [View.read_apply]
  show V c main_v28 _ = V c main_v28 _
  congr 1
  funext a
  apply Fin.ext
  match a with
  | ⟨0, _⟩ => show win1_5.index t 0 * 128 + 1 * (y 0).val = (y 0).val; rw [e0]; omega

/-- One point's stored block against the whole-array perceptron: if the two row-block inputs are rows
    5000 T … of the arrays A and G, entry y of the stored block is entry (5000 T + y₀, y₁) of the
    perceptron of A and G. -/
theorem point1_value (A G : FVec Ideal S50000x128 .f32) (wa wb : FVec Ideal S128x128 .f32) (ba bb : FVec Ideal S128 .f32)
    (x0 x1 : Vec Ideal S5000x128 .f32) (T : ℕ)
    (h0 : ∀ (r : Fin 5000) (p : Fin 50000), p.val = T * 5000 + r.val → ∀ l : Fin 128, x0 (ix2 r l) = A (ix2 p l))
    (h1 : ∀ (r : Fin 5000) (p : Fin 50000), p.val = T * 5000 + r.val → ∀ l : Fin 128, x1 (ix2 r l) = G (ix2 p l))
    (y : S5000x128.Idx) (i : S50000x128.Idx) (hi0 : (i 0).val = T * 5000 + (y 0).val) (hi1 : (i 1).val = (y 1).val) :
    Gen.k1_pay1 (F := Ideal) x0 x1 wa ba wb bb y = Cert.Gin.mlpLin A G wa ba wb bb i := by
  obtain ⟨r, j, rfl⟩ : ∃ (r : Fin 5000) (j : Fin 128), y = ix2 r j := ⟨y 0, y 1, eq_ix2 y⟩
  obtain ⟨p, q, rfl⟩ : ∃ (p : Fin 50000) (q : Fin 128), i = ix2 p q := ⟨i 0, i 1, eq_ix2 i⟩
  have hp : p.val = T * 5000 + r.val := hi0
  obtain rfl : q = j := Fin.ext hi1
  rw [k1_pay1_apply, Cert.Gin.mlpLin_apply]
  unfold Cert.Gin.twoLayerAt
  simp only [h0 r p hp, h1 r p hp]

/-- What point t writes back is block t of the perceptron of the arrays as the region finds them. -/
theorem flushed1_eq (c : Dev nD) (t : Fin cfg1.N) :
    (Gen.dat1 (F := Ideal) V c).flushed 6 t = ((cfg1.win 6).blk t).view.read (Elt Ideal)
      (Cert.Gin.mlpLin (V c main_v14 : FVec Ideal S50000x128 .f32) (V c main_v24 : FVec Ideal S50000x128 .f32)
        (V c main_v25 : FVec Ideal S128x128 .f32) (V c main_v26 : FVec Ideal S128 .f32)
        (V c main_v27 : FVec Ideal S128x128 .f32) (V c main_v28 : FVec Ideal S128 .f32)) := by
  show (cfg1.win 6).cut (grid1.coords t) ((Gen.dat1 V c).after 6 t) = _
  rw [Gen.after1_6]
  unfold Gen.out1_6
  rw [View.canon_unit_zero zeros2_r1]
  simp only [View.ld_unit_zero (S := S5000x128) zeros2_r1, View.ld_unit_zero (S := S128x128) zeros2_r1, View.ld_unit_zero (S := S128) zeros1_r1]
  rw [iblk1_2_eq, iblk1_3_eq, iblk1_4_eq, iblk1_5_eq]
  obtain ⟨-, -, -, -, -, -, -, -, -, -, e0, e1, -⟩ := idx_facts1 t
  funext y
  rw [View.read_apply]
  refine point1_value _ _ _ _ _ _ _ _ t.val (iblk1_0_apply V c t) (iblk1_1_apply V c t) _ _ ?_ ?_
  · show win1_6.index t 0 * 5000 + 1 * (y 0).val = t.val * 5000 + (y 0).val
    rw [e0]; omega
  · show win1_6.index t 1 * 128 + 1 * (y 1).val = (y 1).val
    rw [e1]; omega

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Every row of the output array is in some point's block: row r is in block r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := Gen.N_1
  let t : Fin cfg1.N := ⟨(i 0).val / 5000, by rw [hN]; omega⟩
  obtain ⟨-, -, -, -, -, -, -, -, -, -, e0, e1, -⟩ := idx_facts1 t
  have ht : t.val = (i 0).val / 5000 := rfl
  refine ⟨t, Gen.flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- The second region's output array after its run: the perceptron of the arrays the region finds. -/
theorem region1_value (c : Dev nD) :
    (Gen.dat1 (F := Ideal) V c).arrAt 6 cfg1.N =
      Cert.Gin.mlpLin (V c main_v14 : FVec Ideal S50000x128 .f32) (V c main_v24 : FVec Ideal S50000x128 .f32)
        (V c main_v25 : FVec Ideal S128x128 .f32) (V c main_v26 : FVec Ideal S128 .f32)
        (V c main_v27 : FVec Ideal S128x128 .f32) (V c main_v28 : FVec Ideal S128 .f32) :=
  (Gen.dat1 (F := Ideal) V c).arrAt_eq_of_cover 6 _ (fun t _ => flushed1_eq V c t) cover1

end Cert.KernelIdeal.KerValue

end
-- ==== Proof.PadZero.lean ====
/-
  Widening a perceptron with zero columns changes nothing that was there.

  Let the hidden width grow from h to h + p and the output width from o to o + q, the first weight matrix and both
  bias rows extended by arbitrary entries and the second weight matrix extended so that its NEW ROWS are zero.  Then
  entry (r, j), j < o, of the widened perceptron is entry (r, j) of the original one: the hidden sum splits into the
  old units, which are unchanged, and the new units, each multiplied by a zero weight — and `x · 0 = 0` for every
  extended real x, so nothing about finiteness of the new units is needed.
-/
import proofs.«159780_j70806830842516_1_alg».proof.Proof.Spec

noncomputable section

namespace Cert.Gin

open Idealize.ShloMosaic Idealize.ShloMosaic.ValueIdx

theorem twoLayerAt_widen {n d h o p q : ℕ} (a g : FVec Ideal ⟨2, ![n, d]⟩ .f32)
    (wa : FVec Ideal ⟨2, ![d, h]⟩ .f32) (ba : FVec Ideal ⟨1, ![h]⟩ .f32)
    (wb : FVec Ideal ⟨2, ![h, o]⟩ .f32) (bb : FVec Ideal ⟨1, ![o]⟩ .f32)
    (wa' : FVec Ideal ⟨2, ![d, h + p]⟩ .f32) (ba' : FVec Ideal ⟨1, ![h + p]⟩ .f32)
    (wb' : FVec Ideal ⟨2, ![h + p, o + q]⟩ .f32) (bb' : FVec Ideal ⟨1, ![o + q]⟩ .f32)
    (hwa : ∀ (l : Fin d) (k : Fin h), wa' (ix2 l (Fin.castAdd p k)) = wa (ix2 l k))
    (hba : ∀ k : Fin h, ba' (ix1 (Fin.castAdd p k)) = ba (ix1 k))
    (hwb : ∀ (k : Fin h) (j : Fin o), wb' (ix2 (Fin.castAdd p k) (Fin.castAdd q j)) = wb (ix2 k j))
    (hwb0 : ∀ (k : Fin p) (j : Fin (o + q)), wb' (ix2 (Fin.natAdd h k) j) = 0)
    (hbb : ∀ j : Fin o, bb' (ix1 (Fin.castAdd q j)) = bb (ix1 j))
    (r : Fin n) (j : Fin o) :
    twoLayerAt a g wa' ba' wb' bb' r (Fin.castAdd q j) = twoLayerAt a g wa ba wb bb r j := by
  unfold twoLayerAt
  rw [Fin.sum_univ_add, hbb]
  have hnew : (∑ k : Fin p, max ((∑ l : Fin d, (a (ix2 r l) + g (ix2 r l)) * wa' (ix2 l (Fin.natAdd h k)))
      + ba' (ix1 (Fin.natAdd h k))) 0 * wb' (ix2 (Fin.natAdd h k) (Fin.castAdd q j))) = 0 :=
    Finset.sum_eq_zero fun k _ => by rw [hwb0, mul_zero]
  rw [hnew, add_zero]
  refine congrArg (· + bb (ix1 j)) (Finset.sum_congr rfl fun k _ => ?_)
  rw [hwb, hba]
  refine congrArg (fun s => max (s + ba (ix1 k)) 0 * wb (ix2 k j)) (Finset.sum_congr rfl fun l _ => ?_)
  rw [hwa]

end Cert.Gin

end
-- ==== Proof.SliceWiden.lean ====
/-
  The first 16 columns of the perceptron run on zero-widened weights.

  The second layer's weights and biases are widened from 16 to 128 columns (and the second weight matrix from 16 to
  128 rows) by padding with a value that is zero; the perceptron is run at width 128 and the first 16 columns of its
  output are kept.  Entry (r, j) of what is kept is entry (r, j) of the perceptron on the original weights: an index
  inside the original extent reads the original entry, an index in a new row of the second weight matrix reads the
  padding value, zero, and the widening lemma does the rest.
-/
import proofs.«159780_j70806830842516_1_alg».proof.Proof.PadZero
import Idealize.ShloMosaic.Lib.KernelVsHost
import Idealize.ShloMosaic.Lib.Pipeline.Value

noncomputable section

namespace Cert.Gin

open Idealize.ShloMosaic Idealize.ShloMosaic.ValueIdx

theorem slice_widened (a g : FVec Ideal ⟨2, ![50000, 128]⟩ .f32)
    (wa : FVec Ideal ⟨2, ![128, 16]⟩ .f32) (ba : FVec Ideal ⟨1, ![16]⟩ .f32)
    (wb : FVec Ideal ⟨2, ![16, 16]⟩ .f32) (bb : FVec Ideal ⟨1, ![16]⟩ .f32)
    (z : FVec Ideal ⟨0, ![]⟩ .f32) (hz : ∀ i, z i = 0)
    (hwa : (⟨2, ![128, 16]⟩ : Shape).Pads ![0, 0] ![0, 112] ![0, 0] ⟨2, ![128, 128]⟩)
    (hba : (⟨1, ![16]⟩ : Shape).Pads ![0] ![112] ![0] ⟨1, ![128]⟩)
    (hwb : (⟨2, ![16, 16]⟩ : Shape).Pads ![0, 0] ![112, 112] ![0, 0] ⟨2, ![128, 128]⟩)
    (hu : 0 < (⟨0, ![]⟩ : Shape).numel)
    (hs : (⟨2, ![50000, 128]⟩ : Shape).Slices ![0, 0] ⟨2, ![50000, 16]⟩) :
    extractStridedSlice ⟨2, ![50000, 16]⟩ ![0, 0]
      (mlpLin a g (pad ⟨2, ![128, 128]⟩ ![0, 0] ![0, 112] ![0, 0] wa z hwa hu) (pad ⟨1, ![128]⟩ ![0] ![112] ![0] ba z hba hu)
        (pad ⟨2, ![128, 128]⟩ ![0, 0] ![112, 112] ![0, 0] wb z hwb hu) (pad ⟨1, ![128]⟩ ![0] ![112] ![0] bb z hba hu)) hs
      = mlpLin a g wa ba wb bb := by
  funext i
  obtain ⟨r, j, rfl⟩ : ∃ (r : Fin 50000) (j : Fin 16), i = ix2 r j := ⟨i 0, i 1, eq_ix2 i⟩
  rw [extractStridedSlice_apply ![0, 0] _ hs (ix2 r j) (ix2 r (Fin.castAdd 112 j)) (fun a' => by
    match a' with
    | ⟨0, _⟩ => show r.val = 0 + r.val; omega
    | ⟨1, _⟩ => show j.val = 0 + j.val; omega)]
  rw [mlpLin_apply, mlpLin_apply]
  refine twoLayerAt_widen (h := 16) (p := 112) (o := 16) (q := 112) a g wa ba wb bb _ _ _ _ ?_ ?_ ?_ ?_ ?_ r j
  · intro l k
    exact pad_apply_of_inside _ _ _ wa z hwa hu _ (ix2 l k) (fun a' => by
      match a' with
      | ⟨0, _⟩ => show l.val = 0 + l.val * (0 + 1); omega
      | ⟨1, _⟩ => show k.val = 0 + k.val * (0 + 1); omega)
  · intro k
    exact pad_apply_of_inside _ _ _ ba z hba hu _ (ix1 k) (fun a' => by
      match a' with
      | ⟨0, _⟩ => show k.val = 0 + k.val * (0 + 1); omega)
  · intro k j'
    exact pad_apply_of_inside _ _ _ wb z hwb hu _ (ix2 k j') (fun a' => by
      match a' with
      | ⟨0, _⟩ => show k.val = 0 + k.val * (0 + 1); omega
      | ⟨1, _⟩ => show j'.val = 0 + j'.val * (0 + 1); omega)
  · intro k j'
    refine (pad_apply_of_not_inside _ _ _ wb z hwb hu _ (0 : Fin 2) ?_).trans (hz _)
    show ¬ (0 ≤ 16 + k.val ∧ (16 + k.val - 0) % (0 + 1) = 0 ∧ (16 + k.val - 0) / (0 + 1) < 16)
    omega
  · intro j'
    exact pad_apply_of_inside _ _ _ bb z hba hu _ (ix1 j') (fun a' => by
      match a' with
      | ⟨0, _⟩ => show j'.val = 0 + j'.val * (0 + 1); omega)

end Cert.Gin

end
-- ==== Proof.KernelRun.lean ====
/-
  The idealized kernel's run with its result named.

  The program is a chain of host stretches and two launches; the contents of every buffer at each boundary of the
  chain are a fold from the launch memory (`Gen.W0 … Gen.W12`).  Every weakly fair execution terminates, the ten
  argument arrays end as launched, and — what the frame statement does not say — the result buffer ends at the last
  boundary's contents `Gen.W12 m ρ c` of it.  The value of that term is computed in the modules that import this one.
-/
import proofs.«159780_j70806830842516_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer ends at
    the last boundary's contents and every argument array as launched. -/
theorem run_result : θ_run defs (onTc (τ := τ) (main (F := F))) ⟨m, fun _ => 0, ρ⟩ (fun r => ∀ c : Dev nD,
      r.2.mem ((c.tc : Thread nD τ).loc main_v30) = W12 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v30 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KerRun

end
-- ==== Proof.KernelValue.lean ====
/-
  The idealized kernel's result as one function of its arguments.

  Chaining the boundaries: the first launch finds the input features and their neighbour aggregate and leaves the
  rectified perceptron of their sum (`hidden1`); the second launch finds that matrix, its neighbour aggregate and the
  zero-widened second-layer weights, and leaves the perceptron at width 128; the program returns its first 16 columns,
  which are the perceptron on the original second-layer weights.
-/
import proofs.«159780_j70806830842516_1_alg».proof.Proof.HostGlue
import proofs.«159780_j70806830842516_1_alg».proof.Proof.Blocks0
import proofs.«159780_j70806830842516_1_alg».proof.Proof.Blocks1
import proofs.«159780_j70806830842516_1_alg».proof.Proof.SliceWiden
import proofs.«159780_j70806830842516_1_alg».proof.Proof.KernelRun

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The padding value is zero. -/
theorem padZero_apply (i : S_.Idx) : padZero i = 0 := by
  show (((0#32 : BitVec 32).toInt : ℝ) : EReal) = 0
  simp

/-- The first layer's output: the rectified perceptron of the input features plus their neighbour aggregate. -/
def hidden1 : FVec Ideal S50000x128 .f32 :=
  Cert.Gin.mlpRelu (m ((c : Thread nD τ).loc main_arg0))
    (agg (m ((c : Thread nD τ).loc main_arg1)) (m ((c : Thread nD τ).loc main_arg0)))
    (m ((c : Thread nD τ).loc main_arg2)) (m ((c : Thread nD τ).loc main_arg3))
    (m ((c : Thread nD τ).loc main_arg4)) (m ((c : Thread nD τ).loc main_arg5))

/-- The program's result: the perceptron of the first layer's output plus its neighbour aggregate. -/
def result : FVec Ideal S50000x16 .f32 :=
  Cert.Gin.mlpLin (hidden1 m c) (agg (m ((c : Thread nD τ).loc main_arg1)) (hidden1 m c))
    (m ((c : Thread nD τ).loc main_arg6)) (m ((c : Thread nD τ).loc main_arg7))
    (m ((c : Thread nD τ).loc main_arg8)) (m ((c : Thread nD τ).loc main_arg9))

/-- The first launch leaves the first layer's output. -/
theorem exit0_hidden : W2 m ρ c (Proc.devRef .tc main_v14) = hidden1 m c := by
  rw [exit0_out, region0_value (V1 m ρ) c]
  show Cert.Gin.mlpRelu (W1 m ρ c (Proc.devRef .tc main_arg0)) (W1 m ρ c (Proc.devRef .tc main_v13))
    (W1 m ρ c (Proc.devRef .tc main_arg2)) (W1 m ρ c (Proc.devRef .tc main_arg3))
    (W1 m ρ c (Proc.devRef .tc main_arg4)) (W1 m ρ c (Proc.devRef .tc main_arg5)) = _
  rw [entry0_arg0, entry0_agg, entry0_arg2, entry0_arg3, entry0_arg4, entry0_arg5]
  rfl

/-- The returned buffer holds `result`. -/
theorem result_value : W12 m ρ c (Proc.devRef .tc main_v30) = result m c := by
  rw [result_slice, exit1_out, region1_value (V10 m ρ) c]
  show extractStridedSlice S50000x16 ![0, 0] (Cert.Gin.mlpLin (W10 m ρ c (Proc.devRef .tc main_v14)) (W10 m ρ c (Proc.devRef .tc main_v24))
    (W10 m ρ c (Proc.devRef .tc main_v25)) (W10 m ρ c (Proc.devRef .tc main_v26))
    (W10 m ρ c (Proc.devRef .tc main_v27)) (W10 m ρ c (Proc.devRef .tc main_v28))) slices_S50000x128_S50000x16_0_0 = _
  rw [entry1_feat, entry1_agg, entry1_wa, entry1_ba, entry1_wb, entry1_bb, exit0_hidden]
  exact Cert.Gin.slice_widened _ _ _ _ _ _ padZero padZero_apply _ _ _ _ _

/-- Every weakly fair execution of the idealized kernel's program terminates without a fault, its result buffer at
    `result` and its arguments as launched. -/
theorem run :
    θ_run defs (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_value m ρ c), (h c).2⟩)
    (Cert.KernelIdeal.KerRun.run_result (F := Ideal) m ρ)

end Cert.KernelIdeal.KerValue

end
-- ==== Proof.lean ====
/-
  Two graph-isomorphism layers: a tiled kernel against plain array code, on the extended reals.

  Both programs compute, for node features x and an edge list e,
      h   = relu (mlp₁ (x + A x)),      out = mlp₂ (h + A h),
  where A is the neighbour aggregate (gather the source rows, scatter-add them at the destination rows) and each mlp
  is two affine maps with a rectifier between them.  The kernel's program runs each mlp in a launch tiled over blocks
  of 5000 rows, with the second layer's weights widened by zero columns to width 128 and the first 16 columns of the
  output kept; the reference runs whole-array matrix products at the original widths.

  The two results are one function of the arguments: a block of rows of the tiled perceptron is the same rows of the
  whole one, a matrix product into a zero accumulator is the host's contraction, a change of float format is the
  identity on the extended reals, the zero-widened hidden units are multiplied by zero weights, and the aggregate is
  the same gather and scatter-add in both programs (kept closed throughout).  No step needs the inputs to be finite.
  The three frame claims are the generated frames and the reference's generated run; the ideal pass changed nothing,
  so the preservation claim is trivial.
-/
import proofs.«159780_j70806830842516_1_alg».proof.Defs
import proofs.«159780_j70806830842516_1_alg».proof.Proof.Gen.Kernel
import proofs.«159780_j70806830842516_1_alg».proof.Proof.Gen.Kernel.Skeleton
import proofs.«159780_j70806830842516_1_alg».proof.Proof.Gen.Kernel.Launch
import proofs.«159780_j70806830842516_1_alg».proof.Proof.Gen.Kernel.Points
import proofs.«159780_j70806830842516_1_alg».proof.Proof.Gen.Kernel.Frame
import proofs.«159780_j70806830842516_1_alg».proof.Proof.Gen.KernelIdeal
import proofs.«159780_j70806830842516_1_alg».proof.Proof.Gen.KernelIdeal.Skeleton
import proofs.«159780_j70806830842516_1_alg».proof.Proof.Gen.KernelIdeal.Launch
import proofs.«159780_j70806830842516_1_alg».proof.Proof.Gen.KernelIdeal.Points
import proofs.«159780_j70806830842516_1_alg».proof.Proof.Gen.KernelIdeal.Frame
import proofs.«159780_j70806830842516_1_alg».proof.Proof.Gen.ReferenceIdeal
import proofs.«159780_j70806830842516_1_alg».proof.Proof.Gen.Pre_finite_inputs
import proofs.«159780_j70806830842516_1_alg».proof.Proof.Gen.ReferenceIdeal.Run
import proofs.«159780_j70806830842516_1_alg».proof.Proof.Gen.ReferenceIdeal.Read
import proofs.«159780_j70806830842516_1_alg».proof.Proof.RefValue
import proofs.«159780_j70806830842516_1_alg».proof.Proof.KernelValue
import Idealize.ShloMosaic.Adequacy
import Idealize.ShloMosaic.Init

noncomputable section

namespace Cert.Proof

open Idealize.ShloMosaic Idealize.ShloMosaic.TcCoe Idealize.SL.Sem

/-- The neighbour aggregate is spelled by the same operations in both programs. -/
theorem agg_eq (e : IVec ⟨2, ![2, 800000]⟩ 32) (X : FVec Ideal ⟨2, ![50000, 128]⟩ .f32) :
    Cert.ReferenceIdeal.RefValue.agg e X = Cert.KernelIdeal.KerValue.agg e X := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result: the reference's composed term and
    the kernel's result are the same perceptron of the same first-layer output and the same aggregate. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  obtain ⟨h0, h1, h2, h3, h4, h5, h6, h7, h8, h9⟩ := hagree c
  unfold Cert.ReferenceIdeal.RefValue.hidden1 Cert.KernelIdeal.KerValue.result Cert.KernelIdeal.KerValue.hidden1
  rw [h0, h1, h2, h3, h4, h5, h6, h7, h8, h9]
  simp only [agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
